-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S1000000 .f32) (main_arg2 : FVec F S64x64 .f32) (main_arg3 : IVec S1000000 32) (main_arg4 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1000000 : Shape := ⟨1, ![1000000]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 22
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S64x64, .f32⟩
  | .hbm, ⟨3, _⟩ => ⟨S1000000, .i32⟩
  | .hbm, ⟨4, _⟩ => ⟨S1000000, .i32⟩
  | .hbm, ⟨5, _⟩ => ⟨S1000000x1, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S_, .f32⟩
  | .hbm, ⟨18, _⟩ => ⟨S100000x64, .f32⟩
  | .hbm, ⟨19, _⟩ => ⟨S1000000x1, .i32⟩
  | .hbm, ⟨20, _⟩ => ⟨S100000x64, .f32⟩
  | .hbm, ⟨21, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S10000x64_S10000 : S10000x64.Reduces [1] S10000
  shapeCasts_S10000_S10000x1 : S10000.ShapeCasts S10000x1
  broadcasts_S10000x1_S10000x64 : S10000x1.Broadcasts S10000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S100000 : Shape := ⟨1, ![100000]⟩
abbrev S100000x1 : Shape := ⟨2, ![100000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S64x64, .f32⟩
  | .hbm, ⟨3, _⟩ => ⟨S1000000, .i32⟩
  | .hbm, ⟨4, _⟩ => ⟨S1000000, .i32⟩
  | .hbm, ⟨5, _⟩ => ⟨S1000000x1, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S_, .f32⟩
  | .hbm, ⟨18, _⟩ => ⟨S100000x64, .f32⟩
  | .hbm, ⟨19, _⟩ => ⟨S1000000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.RowNorm.lean ====
/-
  The function both programs compute, one row at a time.

  A row of 64 numbers is multiplied by a 64 × 64 matrix; the resulting row is divided by its Euclidean length,
  the length first bounded below by a small positive constant so that a zero row is left at zero; and negative
  entries are replaced by zero. Every operation is the extended reals' own: the sum, product, square root,
  quotient and maximum of `EReal`, with the two constants kept as the binary words the programs spell.
  The whole result array applies this to every row of the aggregated node features.
-/
import Idealize.ShloMosaic.PureOps.Ideal
import Idealize.ShloMosaic.Lib.ValueIdx

noncomputable section

open Idealize.ShloMosaic Idealize.ShloMosaic.ValueIdx

namespace Cert.RowNorm

/-- Entry `q` of a row of 64 entries times a 64 × 64 matrix: the sum over the inner coordinate. -/
def rowTimes (row : Fin 64 → EReal) (w : (⟨2, ![64, 64]⟩ : Shape).Idx → EReal) (q : Fin 64) : EReal :=
  ∑ k : Fin 64, row k * w (ix2 k q)

/-- The Euclidean length of a row of 64 entries, bounded below by the small positive constant. -/
def lengthFloor (v : Fin 64 → EReal) : EReal :=
  max (Ideal.sqrt (∑ c : Fin 64, v c * v c)) (Ideal.ofBits .f32 0x2B8CBCCC#32)

/-- Entry `q` of the row times the matrix, divided by the bounded length of that product row, negative values cut to zero. -/
def normRelu (row : Fin 64 → EReal) (w : (⟨2, ![64, 64]⟩ : Shape).Idx → EReal) (q : Fin 64) : EReal :=
  max (Ideal.div (rowTimes row w q) (lengthFloor (rowTimes row w))) (Ideal.ofBits .f32 0x00000000#32)

/-- The whole result: row `i 0` of the aggregated features, times the weights, normalized and rectified, at column `i 1`. -/
def rows (agg : (⟨2, ![100000, 64]⟩ : Shape).Idx → EReal) (w : (⟨2, ![64, 64]⟩ : Shape).Idx → EReal) :
    (⟨2, ![100000, 64]⟩ : Shape).Idx → EReal :=
  fun i => normRelu (fun k => agg (ix2 (i 0) k)) w (i 1)

/-- The result at an index given by its coordinates. -/
theorem rows_ix2 (agg : (⟨2, ![100000, 64]⟩ : Shape).Idx → EReal) (w : (⟨2, ![64, 64]⟩ : Shape).Idx → EReal)
    (r : Fin 100000) (q : Fin 64) : rows agg w (ix2 r q) = normRelu (fun k => agg (ix2 r k)) w q := rfl

end Cert.RowNorm

end
-- ==== Proof.BlockPayload.lean ====
/-
  What the kernel body stores, read at an index of its block.

  The body holds a block of 10000 rows of aggregated features and the whole 64 × 64 weight matrix. It forms the
  product of the block with the weights (into a zero accumulator; the narrowing of both operands to sixteen
  bits is the identity on the extended reals), sums the squares of each product row, takes the square root,
  bounds it below by the small constant, stretches that column back over the 64 columns, divides, and cuts
  negative entries to zero. Read at row `p` and column `q` of the block this is `Cert.RowNorm.normRelu` of
  row `p` of the block: only that one row of the block enters.
-/
import proofs.«115198_j11562051961573_2_alg».proof.Proof.Gen.KernelIdeal.Skeleton
import proofs.«115198_j11562051961573_2_alg».proof.Proof.LibMatmul
import proofs.«115198_j11562051961573_2_alg».proof.Proof.LibKeepdims
import proofs.«115198_j11562051961573_2_alg».proof.Proof.RowNorm
import Idealize.ShloMosaic.Lib.Pipeline.Value

noncomputable section

open Idealize.ShloMosaic Idealize.ShloMosaic.ValueIdx

namespace Cert.KernelIdeal.Block

open Cert.KernelIdeal Cert.KernelIdeal.Gen Cert.RowNorm

/-- The block of products: the rows of the block times the weights, into the zero accumulator. -/
def product (x0 : Vec Ideal S10000x64 .f32) (x1 : Vec Ideal S64x64 .f32) : FVec Ideal S10000x64 .f32 :=
  matmul dot_S10000x64_S64x64_S10000x64_1_0_0_1_n_n none
    (truncf .bf16 (shapeCast S10000x64 x0 shapeCasts_S10000x64_S10000x64) bitsLt_bf16_f32)
    (truncf .bf16 x1 bitsLt_bf16_f32) (constant S10000x64 .f32 0x00000000#32)

/-- The column of bounded lengths of the product rows. -/
def lengths (x0 : Vec Ideal S10000x64 .f32) (x1 : Vec Ideal S64x64 .f32) : FVec Ideal S10000x1 .f32 :=
  maximumf
    (sqrt (shapeCast S10000x1
      (multiReduction .add [1] S10000 (mulf (product x0 x1) (product x0 x1)) 0x00000000#32 reduces_S10000x64_S10000 (.inl rfl) rfl)
      shapeCasts_S10000_S10000x1))
    (broadcast S10000x1 (Scalar.ofBits .f32 0x2B8CBCCC#32))

/-- The stored value is the products divided by the stretched column of lengths, cut at zero. -/
theorem payload_eq (x0 : Vec Ideal S10000x64 .f32) (x1 : Vec Ideal S64x64 .f32) :
    k0_pay1 (F := Ideal) x0 x1
      = maximumf (divf (product x0 x1) (broadcastTo S10000x64 (lengths x0 x1) broadcasts_S10000x1_S10000x64))
          (broadcast S10000x64 (Scalar.ofBits .f32 0x00000000#32)) := rfl

/-- A product entry is the row of the block times the weights' column. -/
theorem product_apply (x0 : Vec Ideal S10000x64 .f32) (x1 : Vec Ideal S64x64 .f32) (p : Fin 10000) (q : Fin 64) :
    product x0 x1 (ix2 p q) = rowTimes (fun k => x0 (ix2 p k)) x1 q := by
  unfold product
  refine (matmul_plain_zero_apply 10000 64 64 none _ _ p q).trans ?_
  unfold rowTimes
  refine Finset.sum_congr rfl fun k _ => ?_
  show shapeCast S10000x64 x0 shapeCasts_S10000x64_S10000x64 (ix2 p k) * x1 (ix2 k q) = x0 (ix2 p k) * x1 (ix2 k q)
  rw [shapeCast_self]

/-- A length entry is the bounded length of that row's products. -/
theorem lengths_apply (x0 : Vec Ideal S10000x64 .f32) (x1 : Vec Ideal S64x64 .f32) (p : Fin 10000) :
    lengths x0 x1 (ix2 p (0 : Fin 1)) = lengthFloor (rowTimes (fun k => x0 (ix2 p k)) x1) := by
  unfold lengths lengthFloor
  show max (Ideal.sqrt (shapeCast S10000x1 _ shapeCasts_S10000_S10000x1 (ix2 p (0 : Fin 1)))) (Ideal.ofBits .f32 0x2B8CBCCC#32) = _
  refine congrArg (fun s => max (Ideal.sqrt s) (Ideal.ofBits .f32 0x2B8CBCCC#32)) ?_
  refine (shapeCast_a_a1_apply _ shapeCasts_S10000_S10000x1 p (0 : Fin 1)).trans ?_
  refine (multiReduction_add_rows_apply _ 0x00000000#32 reduces_S10000x64_S10000 (.inl rfl) rfl p).trans ?_
  refine Finset.sum_congr rfl fun c _ => ?_
  show product x0 x1 (ix2 p c) * product x0 x1 (ix2 p c) = _
  rw [product_apply]

/-- The stored value at row `p`, column `q` of the block. -/
theorem payload_apply (x0 : Vec Ideal S10000x64 .f32) (x1 : Vec Ideal S64x64 .f32) (p : Fin 10000) (q : Fin 64) :
    k0_pay1 (F := Ideal) x0 x1 (ix2 p q) = normRelu (fun k => x0 (ix2 p k)) x1 q := by
  rw [payload_eq]
  show max (Ideal.div (product x0 x1 (ix2 p q)) (broadcastTo S10000x64 (lengths x0 x1) broadcasts_S10000x1_S10000x64 (ix2 p q)))
      (Ideal.ofBits .f32 0x00000000#32) = _
  rw [broadcastTo_a1_ab_apply, product_apply, lengths_apply]
  rfl

end Cert.KernelIdeal.Block

end
-- ==== Proof.WholeArray.lean ====
/-
  From the ten blocks to the whole result array.

  The launch walks the 100000 rows in ten blocks of 10000; at point `t` it fetches rows `10000·t … 10000·t + 9999`
  of the aggregated features and the whole weight matrix, runs the body, and writes the block back to the same
  rows of the result. Since an entry of the body's result depends only on its own row of the block
  (`Block.payload_apply`), what point `t` writes back is block `t` of ONE function of the whole arrays,
  `Cert.RowNorm.rows` of the aggregated features and the weights as the launch finds them. The ten blocks tile
  the array (row `r` lies in block `r / 10000`), so after the run the result array is that function.
  The aggregated features the launch finds are what the host operations before it computed from the arguments:
  the gathered rows scaled by the edge values and added up per destination, kept here as one term.
-/
import proofs.«115198_j11562051961573_2_alg».proof.Proof.Gen.KernelIdeal.Value
import proofs.«115198_j11562051961573_2_alg».proof.Proof.BlockPayload
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Block Cert.RowNorm

variable (m : (ℓ : Loc nD τ sig) → Buf (Elt Ideal) ℓ) (ρ : Dev nD → PrngReg)

/-! ## The aggregated features the launch finds -/

/-- The gathered rows `x[src]` (a negative index wrapped once), each scaled by its edge value, added up per
    destination row into zeros: the host operations before the launch, as one term of the arguments. -/
def aggregate (x0 : (⟨S100000x64, .f32⟩ : BufTy).Contents (Elt Ideal)) (x1 : (⟨S1000000, .f32⟩ : BufTy).Contents (Elt Ideal))
    (x3 x4 : (⟨S1000000, .i32⟩ : BufTy).Contents (Elt Ideal)) : (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x4)
    (mulf (broadcastInDim S1000000x64 ![0, 1] bcast_S1000000x1_S1000000x64_0_1 (broadcastInDim S1000000x1 ![0] bcast_S1000000_S1000000x1_0 x1))
      (Host.gather gather_S100000x64_S1000000x1_S1000000x64_1_0_n_n_0_1_164 x0
        (broadcastInDim S1000000x1 ![0] bcast_S1000000_S1000000x1_0
          (select (cmpi .slt x3 (broadcastInDim S1000000 ![] bcast_S_S1000000 (constantI S_ 32 0#32)))
            (addi x3 (broadcastInDim S1000000 ![] bcast_S_S1000000 (constantI S_ 32 100000#32))) x3))))

/-- When the launch is entered its first operand holds the aggregated features of the arguments. -/
theorem entry_aggregate (c : Dev nD) :
    (V m c main_v12 : (⟨S100000x64, .f32⟩ : BufTy).Contents (Elt Ideal))
      = aggregate (m ((c : Thread nD τ).loc main_arg0)) (m ((c : Thread nD τ).loc main_arg1))
          (m ((c : Thread nD τ).loc main_arg3)) (m ((c : Thread nD τ).loc main_arg4)) := by
  dsimp only [Gen.V, Gen.hostOps0]
  after_results
  rfl

/-! ## What one point writes back -/

theorem zero_offsets : (![0, 0] : Fin 2 → Nat) = fun _ => 0 := funext fun a => by fin_cases a <;> rfl

/-- The block indices over the grid: the features' and the result's block at point `t` is block `t` of the rows and
    the only block of the columns; the weights' block is always the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of block `t` of any array of the features' shape is the array's entry `(10000·t + p, k)`. -/
theorem read_features_block (A : (⟨S100000x64, .f32⟩ : BufTy).Contents (Elt Ideal)) (t : Fin cfg0.N)
    (p : Fin 10000) (k : Fin 64) (r : Fin 100000) (hr : r.val = t.val * 10000 + p.val) :
    ((cfg0.win 0).blk t).view.read (Elt Ideal) A (ix2 p k) = A (ix2 r k) := by
  obtain ⟨e00, e01, -, -, -, -⟩ := index_facts t
  rw [View.read_apply]
  show A (((cfg0.win 0).blk t).view.emb (ix2 p k)) = A (ix2 r k)
  refine congrArg A (funext fun a => Fin.ext ?_)
  match a with
  | ⟨0, _⟩ =>
    show win0_0.index t (0 : Fin 2) * 10000 + 1 * p.val = r.val
    omega
  | ⟨1, _⟩ =>
    show win0_0.index t (1 : Fin 2) * 64 + 1 * k.val = k.val
    omega

/-- The weights' block at every point is the whole matrix. -/
theorem read_weights_block (A : (⟨S64x64, .f32⟩ : BufTy).Contents (Elt Ideal)) (t : Fin cfg0.N) :
    ((cfg0.win 1).blk t).view.read (Elt Ideal) A = A := by
  obtain ⟨-, -, e10, e11, -, -⟩ := index_facts t
  funext y
  rw [View.read_apply]
  show A (((cfg0.win 1).blk t).view.emb y) = A y
  refine congrArg A (funext fun a => Fin.ext ?_)
  match a with
  | ⟨0, _⟩ =>
    show win0_1.index t (0 : Fin 2) * 64 + 1 * (y 0).val = (y 0).val
    omega
  | ⟨1, _⟩ =>
    show win0_1.index t (1 : Fin 2) * 64 + 1 * (y 1).val = (y 1).val
    omega

/-- A block `X` written back at point `t` is block `t` of an array `G` of the result's shape as soon as entry
    `(p, q)` of `X` is entry `(10000·t + p, q)` of `G`. -/
theorem write_back_eq (X : Vec Ideal S10000x64 .f32) (G : (⟨S100000x64, .f32⟩ : BufTy).Contents (Elt Ideal)) (t : Fin cfg0.N)
    (h : ∀ (p : Fin 10000) (q : Fin 64) (r : Fin 100000), r.val = t.val * 10000 + p.val → X (ix2 p q) = G (ix2 r q)) :
    (cfg0.win 2).cut (grid0.coords t) X = ((cfg0.win 2).blk t).view.read (Elt Ideal) G := by
  obtain ⟨-, -, -, -, e20, e21⟩ := index_facts t
  have hN : cfg0.N = 10 := N_0
  funext j
  rw [View.read_apply]
  obtain ⟨p, q, rfl⟩ : ∃ (p : Fin 10000) (q : Fin 64), j = ix2 p q := ⟨j 0, j 1, eq_ix2 j⟩
  have hr : t.val * 10000 + p.val < 100000 := by
    have h1 := t.isLt
    have h2 := p.isLt
    omega
  show X (ix2 p q) = G (((cfg0.win 2).blk t).view.emb (ix2 p q))
  refine (h p q ⟨t.val * 10000 + p.val, hr⟩ rfl).trans (congrArg G (funext fun a => Fin.ext ?_))
  match a with
  | ⟨0, _⟩ =>
    show t.val * 10000 + p.val = win0_2.index t (0 : Fin 2) * 10000 + 1 * p.val
    omega
  | ⟨1, _⟩ =>
    show q.val = win0_2.index t (1 : Fin 2) * 64 + 1 * q.val
    omega

/-- WHAT POINT `t` WRITES BACK is block `t` of `rows` of the aggregated features and the weights as the launch finds them:
    the body's entry `(p, q)` is `normRelu` of row `p` of the features' block, which is row `10000·t + p` of the array. -/
theorem flushed_eq (c : Dev nD) (t : Fin cfg0.N) :
    (dats m 0 c).flushed 2 t
      = ((cfg0.win 2).blk t).view.read (Elt Ideal) (rows (V m c main_v12) (V m c main_arg2)) := by
  rw [Cert.KernelIdeal.Value.flushed2]
  unfold out0_2
  rw [View.canon_unit_zero zero_offsets]
  simp only [View.ld_unit_zero (S := S10000x64) zero_offsets, View.ld_unit_zero (S := S64x64) zero_offsets]
  refine write_back_eq (k0_pay1 (F := Ideal) (iblk m c 0 t) (iblk m c 1 t)) (rows (V m c main_v12) (V m c main_arg2)) t
    fun p q r hr => ?_
  have hw : iblk m c 1 t = V m c main_arg2 := read_weights_block (V m c main_arg2) t
  have hrow : (fun k : Fin 64 => iblk m c 0 t (ix2 p k)) = fun k : Fin 64 => V m c main_v12 (ix2 r k) :=
    funext fun k => read_features_block (V m c main_v12) t p k r hr
  refine ((payload_apply (iblk m c 0 t) (iblk m c 1 t) p q).trans ?_).trans (rows_ix2 (V m c main_v12) (V m c main_arg2) r q).symm
  exact congrArg₂ (fun row w => normRelu row w q) hrow hw

/-! ## The ten blocks tile the array -/

/-- An index of the array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v13).slice (win0_2.rect t)).set ↔ _
  rw [View.set_slice_whole, Rect.mem_set_unit]
  exact Iff.rfl

/-- Row `r` of the array lies in the block of point `r / 10000`. -/
theorem covered (i : S100000x64.Idx) :
    ∃ t : Fin cfg0.N, (cfg0.win 2).flush t = true ∧ i ∈ ((cfg0.win 2).blk t).view.set := by
  have hN : cfg0.N = 10 := N_0
  have h0 : (i 0).val < 100000 := (i 0).isLt
  have h1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, e20, e21⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-! ## The array after the run, and the run -/

/-- After the last point the result array is `rows` of the aggregated features and the weights. -/
theorem final (c : Dev nD) :
    (dats m 0 c).arrAt 2 cfg0.N = rows (V m c main_v12) (V m c main_arg2) :=
  (dats m 0 c).arrAt_eq_of_cover 2 (rows (V m c main_v12) (V m c main_arg2)) (fun t _ => flushed_eq m c t) covered

/-- The same in terms of the arguments: the aggregated features of the arguments, and the weight argument. -/
theorem final_args (c : Dev nD) :
    (dats m 0 c).arrAt 2 cfg0.N
      = rows (aggregate (m ((c : Thread nD τ).loc main_arg0)) (m ((c : Thread nD τ).loc main_arg1))
          (m ((c : Thread nD τ).loc main_arg3)) (m ((c : Thread nD τ).loc main_arg4))) (m ((c : Thread nD τ).loc main_arg2)) := by
  rw [final, entry_aggregate, V_main_arg2]

/-- Every weakly fair execution of the kernel's program ends with the result array at `rows` of the aggregated
    features of the arguments and the weights, the arguments unchanged. -/
theorem run : θ_run defs (onTc (τ := τ) (main (F := Ideal))) ⟨m, fun _ => 0, ρ⟩ fun r => ∀ c : Dev nD,
      r.2.mem ((c : Thread nD τ).loc main_v13)
        = rows (aggregate (m ((c : Thread nD τ).loc main_arg0)) (m ((c : Thread nD τ).loc main_arg1))
            (m ((c : Thread nD τ).loc main_arg3)) (m ((c : Thread nD τ).loc main_arg4))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩)
    (Cert.KernelIdeal.Value.run_blocks m ρ)

end Cert.KernelIdeal.Whole

end
-- ==== Proof.ReferenceRows.lean ====
/-
  The reference, read at an index, is `Cert.RowNorm.rows` of its own aggregated features and the weights.

  The reference multiplies the aggregated features by the weights as one whole product, squares, sums each row
  from an initial zero, takes the square root of the column of sums, bounds it below by the small constant,
  stretches it back over the columns, divides and cuts at zero. At row `r` and column `q` each of these stages
  reads one entry (or one row) of the stage before; following them back gives `normRelu` of row `r` of the
  aggregated features. The initial zero of the row sum is the extended real `0`, which the sum absorbs.
  The aggregated features themselves (the gathered and scaled rows added up per destination) are kept as one
  unopened term: the kernel's program computes them by the same operations.
-/
import proofs.«115198_j11562051961573_2_alg».proof.Proof.Gen.ReferenceIdeal.Read
import proofs.«115198_j11562051961573_2_alg».proof.Proof.RowNorm

noncomputable section

open Idealize.ShloMosaic Idealize.ShloMosaic.ValueIdx

namespace Cert.ReferenceIdeal.Rows

open Cert.ReferenceIdeal Cert.ReferenceIdeal.Read Cert.RowNorm

variable (x0 : (⟨S100000x64, .f32⟩ : BufTy).Contents (Elt Ideal)) (x1 : (⟨S1000000, .f32⟩ : BufTy).Contents (Elt Ideal))
  (x2 : (⟨S64x64, .f32⟩ : BufTy).Contents (Elt Ideal)) (x3 x4 : (⟨S1000000, .i32⟩ : BufTy).Contents (Elt Ideal))

/-- The left factor of the product at `(r, c)`, inner coordinate `k`, is entry `(r, k)`. -/
theorem lidx_eq (r : Fin 100000) (c k : Fin 64) : lidx_main_v13 (ix2 r c) k = ix2 r k :=
  funext fun a => Fin.ext (by match a with | ⟨0, _⟩ => rfl | ⟨1, _⟩ => rfl)

/-- The right factor is entry `(k, c)`. -/
theorem ridx_eq (r : Fin 100000) (c k : Fin 64) : ridx_main_v13 (ix2 r c) k = ix2 k c :=
  funext fun a => Fin.ext (by match a with | ⟨0, _⟩ => rfl | ⟨1, _⟩ => rfl)

/-- The stretched column at `(r, q)` reads the column's entry of row `r`. -/
theorem idx17_eq (r : Fin 100000) (q : Fin 64) : idx_main_v17 (ix2 r q) = ix2 r (0 : Fin 1) :=
  funext fun a => Fin.ext (by match a with | ⟨0, _⟩ => rfl | ⟨1, _⟩ => rfl)

/-- The column's entry of row `r` reads the vector of sums at `r`. -/
theorem idx2_eq (r : Fin 100000) : idx_main_call0_v2 (ix2 r (0 : Fin 1)) = ix1 r :=
  funext fun a => Fin.ext (by match a with | ⟨0, _⟩ => rfl)

/-- The sum at `r` runs over the entries `(r, k)`. -/
theorem idx1_eq (r : Fin 100000) (k : Fin 64) : idx_main_call0_v1 (ix1 r) k = ix2 r k :=
  funext fun a => Fin.ext (by match a with | ⟨0, _⟩ => rfl | ⟨1, _⟩ => rfl)

/-- The whole product at `(r, c)`: row `r` of the aggregated features times column `c` of the weights. -/
theorem product_apply (r : Fin 100000) (c : Fin 64) :
    val_main_v13 (F := Ideal) x0 x1 x2 x3 x4 (ix2 r c)
      = rowTimes (fun k => val_main_v12 (F := Ideal) x0 x1 x3 x4 (ix2 r k)) x2 c := by
  rw [val_main_v13_apply]
  unfold rowTimes
  refine Finset.sum_congr rfl fun k _ => ?_
  rw [lidx_eq, ridx_eq]

/-- The bounded length of row `r` of the product. -/
theorem length_apply (r : Fin 100000) :
    val_main_v16 (F := Ideal) x0 x1 x2 x3 x4 (ix2 r (0 : Fin 1))
      = lengthFloor (rowTimes (fun k => val_main_v12 (F := Ideal) x0 x1 x3 x4 (ix2 r k)) x2) := by
  rw [val_main_v16_apply, val_main_v14_apply, val_main_call0_v2_apply, val_main_v15_apply, val_main_cst_1_apply,
    idx2_eq, val_main_call0_v1_apply, val_main_call0_cst_apply]
  simp only [Ideal.maximumf_def, Ideal.hostUnary_sqrt_def, Ideal.ofBits_def, Ideal.ofBits_zero_f32, zero_add]
  unfold lengthFloor
  refine congrArg (fun s => max (Ideal.sqrt s) (Ideal.ofBits .f32 0x2B8CBCCC#32)) ?_
  refine Finset.sum_congr rfl fun k _ => ?_
  rw [idx1_eq, val_main_call0_v0_apply, product_apply]
  rfl

/-- The reference's result is `rows` of its aggregated features and the weights. -/
theorem result_eq :
    val_main_v19 (F := Ideal) x0 x1 x2 x3 x4 = rows (val_main_v12 (F := Ideal) x0 x1 x3 x4) x2 := by
  funext i
  obtain ⟨r, q, rfl⟩ : ∃ (r : Fin 100000) (q : Fin 64), i = ix2 r q := ⟨i 0, i 1, eq_ix2 i⟩
  rw [rows_ix2, val_main_v19_apply, val_main_v18_apply, val_main_v17_apply, val_main_call1_v0_apply,
    val_main_call1_cst_apply, idx17_eq, length_apply, product_apply]
  rfl

end Cert.ReferenceIdeal.Rows

end
-- ==== Proof.lean ====
/-
  A graph-convolution layer: the rows `x[src]` gathered along the edges, scaled by the edge values and added up
  per destination node; the aggregate multiplied by a 64 × 64 weight matrix; each row of the product divided by its
  Euclidean length (bounded below by a small constant) and cut at zero.

  Both programs compute the aggregate with the same host operations, so it is carried as one unopened term. The
  kernel then works on ten blocks of 10000 rows, multiplying in a matrix unit with operands narrowed to sixteen
  bits; the reference does one whole product on the host. On the extended reals the narrowing is the identity,
  both products are the same finite sums, the row sums of squares are the same sums (the reference's initial
  zero is absorbed), and square root, maximum and quotient are the same functions; an entry of the result depends
  only on its own row, so the kernel's ten blocks are the ten row ranges of the one whole-array function
  `Cert.RowNorm.rows`. No rearrangement of a sum and no cancellation is used, so the finiteness of the inputs is
  never needed, and nothing is assumed of the two index arrays.

  Proof/RowNorm.lean states the function; Proof/BlockPayload.lean reads the kernel body's stored value at an
  index; Proof/WholeArray.lean passes from the blocks to the array and reads the run; Proof/ReferenceRows.lean
  reads the reference's stages at an index; Proof/LibMatmul.lean and Proof/LibKeepdims.lean hold the general
  readings of a plain matrix product, a column cast, a column stretch and a row sum. Here: the aggregate is the
  same term in both programs, and the five claims.
-/
import proofs.«115198_j11562051961573_2_alg».proof.Defs
import proofs.«115198_j11562051961573_2_alg».proof.Proof.Gen.Kernel
import proofs.«115198_j11562051961573_2_alg».proof.Proof.Gen.Kernel.Skeleton
import proofs.«115198_j11562051961573_2_alg».proof.Proof.Gen.Kernel.Launch
import proofs.«115198_j11562051961573_2_alg».proof.Proof.Gen.Kernel.Points
import proofs.«115198_j11562051961573_2_alg».proof.Proof.Gen.Kernel.Frame
import proofs.«115198_j11562051961573_2_alg».proof.Proof.Gen.KernelIdeal
import proofs.«115198_j11562051961573_2_alg».proof.Proof.Gen.KernelIdeal.Skeleton
import proofs.«115198_j11562051961573_2_alg».proof.Proof.Gen.KernelIdeal.Launch
import proofs.«115198_j11562051961573_2_alg».proof.Proof.Gen.KernelIdeal.Points
import proofs.«115198_j11562051961573_2_alg».proof.Proof.Gen.KernelIdeal.Frame
import proofs.«115198_j11562051961573_2_alg».proof.Proof.Gen.ReferenceIdeal
import proofs.«115198_j11562051961573_2_alg».proof.Proof.Gen.Pre_finite_inputs
import proofs.«115198_j11562051961573_2_alg».proof.Proof.Gen.KernelIdeal.Value
import proofs.«115198_j11562051961573_2_alg».proof.Proof.Gen.ReferenceIdeal.Run
import proofs.«115198_j11562051961573_2_alg».proof.Proof.Gen.ReferenceIdeal.Read
import proofs.«115198_j11562051961573_2_alg».proof.Proof.WholeArray
import proofs.«115198_j11562051961573_2_alg».proof.Proof.ReferenceRows
import Idealize.ShloMosaic.Adequacy
import Idealize.ShloMosaic.Init

noncomputable section

namespace Cert.Proof

open Idealize.ShloMosaic Idealize.ShloMosaic.TcCoe Idealize.SL.Sem

/-- The aggregated features are one term in both programs: the same gather, scaling and per-destination sum of
    the same arguments, spelt with each program's own copy of the dimension records. -/
theorem aggregate_eq (x0 : (⟨Cert.KernelIdeal.S100000x64, .f32⟩ : BufTy).Contents (Elt Ideal))
    (x1 : (⟨Cert.KernelIdeal.S1000000, .f32⟩ : BufTy).Contents (Elt Ideal))
    (x3 x4 : (⟨Cert.KernelIdeal.S1000000, .i32⟩ : BufTy).Contents (Elt Ideal)) :
    Cert.ReferenceIdeal.Read.val_main_v12 (F := Ideal) x0 x1 x3 x4 = Cert.KernelIdeal.Whole.aggregate x0 x1 x3 x4 := rfl

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `rows` of the aggregated
    features of the arguments and the weights. -/
theorem algebraic : Cert.algebraic_KernelIdeal_ReferenceIdeal := by
  intro m ρ m' ρ' _ hagree
  refine ⟨fun c => Cert.RowNorm.rows (Cert.KernelIdeal.Whole.aggregate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Rows.result_eq, (hagree c).1, (hagree c).2.1,
    (hagree c).2.2.1, (hagree c).2.2.2.1, (hagree c).2.2.2.2, aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
